-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x224x224 : Shape := ⟨4, ![32, 3, 224, 224]⟩
abbrev S_ : Shape := ⟨0, ![]⟩

class Facts : Prop where
  bcast_S_S32x3x224x224 : S_.BroadcastsInDim S32x3x224x224 (![] : Fin 0 → Fin S32x3x224x224.rank)
  reducesTo_S32x3x224x224_S_d0_1_2_3 : S32x3x224x224.ReducesTo [0, 1, 2, 3] S_
  h_S_ : 0 < S_.numel

variable [Facts]

def fn {F : FTy → Type} [FloatOps F] (main_arg0 : FVec F S32x3x224x224 .f32) : IVec S_ 1 :=
  let main_v0 : FVec F S32x3x224x224 .f32 := Host.absf main_arg0
  let main_cst : FVec F S_ .f32 := constant S_ .f32 0x7F800000#32
  let main_v1 : FVec F S32x3x224x224 .f32 := broadcastInDim S32x3x224x224 ![] bcast_S_S32x3x224x224 main_cst
  let main_v2 : IVec S32x3x224x224 1 := cmpf .olt main_v0 main_v1
  let main_c : IVec S_ 1 := constantI S_ 1 1#1
  let main_v3 : IVec S_ 1 := (fun x v => Host.reduce IntOp.andi x v reducesTo_S32x3x224x224_S_d0_1_2_3 h_S_) main_v2 main_c
  main_v3
-- ==== Kernel.lean ====
abbrev S32x3x224x224 : Shape := ⟨4, ![32, 3, 224, 224]⟩
abbrev S32x150528 : Shape := ⟨2, ![32, 150528]⟩
abbrev S32x32x150528 : Shape := ⟨3, ![32, 32, 150528]⟩
abbrev S32x1792 : Shape := ⟨2, ![32, 1792]⟩
abbrev S32x32x1792 : Shape := ⟨3, ![32, 32, 1792]⟩
abbrev S32x1x1792 : Shape := ⟨3, ![32, 1, 1792]⟩
abbrev S32x32x3x224x224 : Shape := ⟨5, ![32, 32, 3, 224, 224]⟩

abbrev nBuf : Space → Nat
  | .hbm => 4
  | .vmem => 4
  | .smem => 0
  | _ => 0

abbrev bufTy : (tb : Table) → Fin (tcTables nBuf tb) → BufTy
  | .hbm, ⟨0, _⟩ => ⟨S32x3x224x224, .f32⟩
  | .hbm, ⟨1, _⟩ => ⟨S32x150528, .f32⟩
  | .hbm, ⟨2, _⟩ => ⟨S32x32x150528, .f32⟩
  | .hbm, ⟨3, _⟩ => ⟨S32x32x3x224x224, .f32⟩
  | .local _ .vmem, ⟨0, _⟩ => ⟨S32x1792, .f32⟩
  | .local _ .vmem, ⟨1, _⟩ => ⟨S32x1792, .f32⟩
  | .local _ .vmem, ⟨2, _⟩ => ⟨S32x32x1792, .f32⟩
  | .local _ .vmem, ⟨3, _⟩ => ⟨S32x32x1792, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![84], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S32x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x3x224x224_S32x150528 : S32x3x224x224.ShapeCasts S32x150528
  inb_S32x1792_S32x1792_0_0 : ∀ a, (![0, 0] : Fin 2 → Nat) a + S32x1792.size a ≤ S32x1792.size a
  h_S32x1792 : 0 < S32x1792.numel
  shapeCasts_S32x1792_S32x1792 : S32x1792.ShapeCasts S32x1792
  iota_S32x32x1792_d1_w32 : S32x32x1792.Iotas .tc 32 [1]
  shapeCasts_S32x1792_S32x1x1792 : S32x1792.ShapeCasts S32x1x1792
  broadcasts_S32x1x1792_S32x32x1792 : S32x1x1792.Broadcasts S32x32x1792
  inb_S32x32x1792_S32x32x1792_0_0_0 : ∀ a, (![0, 0, 0] : Fin 3 → Nat) a + S32x32x1792.size a ≤ S32x32x1792.size a
  h_S32x32x1792 : 0 < S32x32x1792.numel
  shapeCasts_S32x32x150528_S32x32x3x224x224 : S32x32x150528.ShapeCasts S32x32x3x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1792.size a ≤ S32x150528.size a
  hwx0_0 : ∀ i : grid0.Coords, EltTy.bits .f32 = 32 ∨ (Rect.block (s := S32x150528) S32x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x1792.size a ≤ S32x32x150528.size a
  hwx0_1 : ∀ i : grid0.Coords, EltTy.bits .f32 = 32 ∨ (Rect.block (s := S32x32x150528) S32x32x1792.size (cc0_transform_1 i) (hinb0_1 i)).WholeWords (EltTy.packing .f32)

variable [Facts₀]

abbrev win0_0 : Pipeline.Window sig grid0 :=
  Pipeline.Window.ofSpec (Memref.whole main_v0) S32x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x32x1792.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x3x224x224 : Shape := ⟨4, ![32, 3, 224, 224]⟩
abbrev S_ : Shape := ⟨0, ![]⟩
abbrev S32 : Shape := ⟨1, ![32]⟩
abbrev S1x32x1x1x1 : Shape := ⟨5, ![1, 32, 1, 1, 1]⟩
abbrev S32x1x3x224x224 : Shape := ⟨5, ![32, 1, 3, 224, 224]⟩
abbrev S32x32x3x224x224 : Shape := ⟨5, ![32, 32, 3, 224, 224]⟩

abbrev nBuf : Space → Nat
  | .hbm => 37
  | .vmem => 0
  | .smem => 0
  | _ => 0

abbrev bufTy : (tb : Table) → Fin (tcTables nBuf tb) → BufTy
  | .hbm, ⟨0, _⟩ => ⟨S32x3x224x224, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S32x3x224x224, .f32⟩
  | .hbm, ⟨5, _⟩ => ⟨S32x3x224x224, .f32⟩
  | .hbm, ⟨6, _⟩ => ⟨S_, .f32⟩
  | .hbm, ⟨7, _⟩ => ⟨S32x3x224x224, .f32⟩
  | .hbm, ⟨8, _⟩ => ⟨S32x3x224x224, .f32⟩
  | .hbm, ⟨9, _⟩ => ⟨S_, .f32⟩
  | .hbm, ⟨10, _⟩ => ⟨S32x3x224x224, .f32⟩
  | .hbm, ⟨11, _⟩ => ⟨S32x3x224x224, .f32⟩
  | .hbm, ⟨12, _⟩ => ⟨S_, .f32⟩
  | .hbm, ⟨13, _⟩ => ⟨S32x3x224x224, .f32⟩
  | .hbm, ⟨14, _⟩ => ⟨S32x3x224x224, .f32⟩
  | .hbm, ⟨15, _⟩ => ⟨S32x3x224x224, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S32x3x224x224, .i32⟩
  | .hbm, ⟨20, _⟩ => ⟨S32x3x224x224, .i32⟩
  | .hbm, ⟨21, _⟩ => ⟨S_, .i32⟩
  | .hbm, ⟨22, _⟩ => ⟨S32x3x224x224, .i32⟩
  | .hbm, ⟨23, _⟩ => ⟨S32x3x224x224, .i32⟩
  | .hbm, ⟨24, _⟩ => ⟨S32, .i32⟩
  | .hbm, ⟨25, _⟩ => ⟨S1x32x1x1x1, .i32⟩
  | .hbm, ⟨26, _⟩ => ⟨S32x1x3x224x224, .i32⟩
  | .hbm, ⟨27, _⟩ => ⟨S32x32x3x224x224, .i32⟩
  | .hbm, ⟨28, _⟩ => ⟨S32x32x3x224x224, .i32⟩
  | .hbm, ⟨29, _⟩ => ⟨S32x32x3x224x224, .i1⟩
  | .hbm, ⟨30, _⟩ => ⟨S32x1x3x224x224, .f32⟩
  | .hbm, ⟨31, _⟩ => ⟨S_, .f32⟩
  | .hbm, ⟨32, _⟩ => ⟨S32x1x3x224x224, .f32⟩
  | .hbm, ⟨33, _⟩ => ⟨S32x1x3x224x224, .i1⟩
  | .hbm, ⟨34, _⟩ => ⟨S32x32x3x224x224, .i1⟩
  | .hbm, ⟨35, _⟩ => ⟨S32x32x3x224x224, .i1⟩
  | .hbm, ⟨36, _⟩ => ⟨S32x32x3x224x224, .f32⟩
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_c_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]

class Facts₀ : Prop where
  bcast_S_S32x3x224x224 : S_.BroadcastsInDim S32x3x224x224 (![] : Fin 0 → Fin S32x3x224x224.rank)
  shapeCasts_S32_S1x32x1x1x1 : S32.ShapeCasts S1x32x1x1x1
  bcast_S32x3x224x224_S32x1x3x224x224_0_2_3_4 : S32x3x224x224.BroadcastsInDim S32x1x3x224x224 (![0, 2, 3, 4] : Fin 4 → Fin S32x1x3x224x224.rank)
  bcast_S32x1x3x224x224_S32x32x3x224x224_0_1_2_3_4 : S32x1x3x224x224.BroadcastsInDim S32x32x3x224x224 (![0, 1, 2, 3, 4] : Fin 5 → Fin S32x32x3x224x224.rank)
  bcast_S1x32x1x1x1_S32x32x3x224x224_0_1_2_3_4 : S1x32x1x1x1.BroadcastsInDim S32x32x3x224x224 (![0, 1, 2, 3, 4] : Fin 5 → Fin S32x32x3x224x224.rank)
  bcast_S_S32x1x3x224x224 : S_.BroadcastsInDim S32x1x3x224x224 (![] : Fin 0 → Fin S32x1x3x224x224.rank)

variable [Facts₀]

class Facts : Prop extends Facts₀ where

variable [Facts]
-- ==== Proof.LibBitToFloat.lean ====
/-
  A bit as a float, over the extended reals.

  The f32 constants `1.0` (the word `0x3F800000`) and `0.0` (the zero word) are the reals `1` and `0`, and an
  unsigned conversion of a bit gives the real `1` for the bit one and `0` for the bit zero. So a selection between
  the constants one and zero by a bit — a mask spelt `where(c, 1.0, 0.0)` — is the conversion of the bit — the same mask
  spelt `c.astype(float32)`. With the two laws of a conjunction of bits with a constant bit.
-/
import Idealize.ShloMosaic.PureOps.Ideal
import Idealize.ShloMosaic.PureOps.Ideal.Laws
import Idealize.ShloMosaic.Lib.ValueIdx

noncomputable section

namespace Cert.LibBitToFloat

open Idealize.ShloMosaic Idealize.ShloMosaic.ValueIdx

/-- The f32 constant one is the real `1`. -/
theorem ofBits_one_f32 : Ideal.ofBits .f32 0x3F800000#32 = ((1 : ℝ) : EReal) := by
  simp [Ideal.ofBits, Ideal.ieee, -EReal.coe_mul]
  norm_num

/-- Selecting between the f32 constants one and zero by a bit is converting the bit. -/
theorem select_one_zero (b : BitVec 1) :
    Scalar.select b (FloatOps.ofBits (F := Ideal) .f32 0x3F800000#32) (FloatOps.ofBits (F := Ideal) .f32 0x00000000#32)
      = FloatOps.uitofp (F := Ideal) .f32 b := by
  rcases BitVec.eq_zero_or_eq_one b with h | h <;> subst h
  · rw [select_zero, Ideal.ofBits_def, Ideal.ofBits_zero_f32]
    show (0 : EReal) = (((0#1 : BitVec 1).toNat : ℝ) : EReal)
    simp
  · rw [select_one, Ideal.ofBits_def, ofBits_one_f32]
    show ((1 : ℝ) : EReal) = (((1#1 : BitVec 1).toNat : ℝ) : EReal)
    simp

/-- A conjunction with the bit zero is the bit zero. -/
theorem andi_zero : ∀ b : BitVec 1, IntOp.andi b 0#1 = 0#1 := by decide

/-- A conjunction with the bit one is the other bit. -/
theorem andi_one : ∀ b : BitVec 1, IntOp.andi b 1#1 = b := by decide

end Cert.LibBitToFloat

end
-- ==== Proof.Spec.lean ====
/-
  Latency coding, as a specification over the extended reals.

  An input value `x` is clipped to `[0, 1]`, `xn = min 1 (max 0 x)`; its latency is the integer part of
  `(1 - xn) · 31`, clamped to `[0, 31]`; and the output at time step `t` (one of 32) is `1` when the latency is `t`
  and the clipped input is positive, `0` otherwise.

  Two spellings of that last step meet here. One converts the conjunction of the two tests to a float (the bit
  `1` is the real `1`, the bit `0` the real `0`). The other replaces the latency of a non-positive input by the
  sentinel `32`, which no time step `t < 32` equals, and then selects between the float constants one and zero.
  `spikeSentinel_eq` says they agree for every `t < 32`: a statement about bits and 32-bit words only, which uses
  nothing of real arithmetic, so it holds for every extended real `x`, the infinities included.
-/
import Idealize.ShloMosaic.PureOps.Ideal
import Idealize.ShloMosaic.PureOps.Ideal.Laws
import Idealize.ShloMosaic.Lib.ValueIdx
import proofs.«122302_j1297080123579_2_alg».proof.Proof.LibBitToFloat

noncomputable section

namespace Cert.Latency

open Idealize.ShloMosaic Idealize.ShloMosaic.ValueIdx Cert.LibBitToFloat

/-- The input clipped to `[0, 1]`: `min 1 (max 0 x)`. -/
def clip01 (x : Ideal .f32) : Ideal .f32 :=
  FloatOps.minimumf (FloatOps.ofBits .f32 0x3F800000#32) (FloatOps.maximumf (FloatOps.ofBits .f32 0x00000000#32) x)

/-- The latency: the integer part of `(1 - clip01 x) · 31`, clamped to `[0, 31]`. -/
def latency (x : Ideal .f32) : BitVec 32 :=
  IntOp.minsi 31#32 (IntOp.maxsi 0#32 (FloatOps.fptosi 32
    (FloatOps.mulf (FloatOps.subf (FloatOps.ofBits .f32 0x3F800000#32) (clip01 x)) (FloatOps.ofBits .f32 0x41F80000#32))))

/-- The gate: the clipped input is positive. -/
def gate (x : Ideal .f32) : BitVec 1 :=
  FloatOps.cmpf .ogt (clip01 x) (FloatOps.ofBits .f32 0x00000000#32)

/-- The spike at time step `t`, as the conjunction of "the latency is `t`" and the gate, converted to a float. -/
def spike (x : Ideal .f32) (t : Nat) : Ideal .f32 :=
  FloatOps.uitofp .f32 (IntOp.andi (IntOp.cmpi .eq (latency x) (BitVec.ofNat 32 t)) (gate x))

/-- The spike at time step `t`, with the gate folded into the latency: a closed gate moves the latency to `32`,
    out of every time step's reach, and the test selects between the constants one and zero. -/
def spikeSentinel (x : Ideal .f32) (t : Nat) : Ideal .f32 :=
  Scalar.select (IntOp.cmpi .eq (Scalar.select (gate x) (latency x) 32#32) (BitVec.ofNat 32 t))
    (FloatOps.ofBits (F := Ideal) .f32 0x3F800000#32) (FloatOps.ofBits (F := Ideal) .f32 0x00000000#32)

/-- The sentinel `32` is no time step. -/
theorem sentinel_ne : ∀ t : Fin 32, IntOp.cmpi .eq 32#32 (BitVec.ofNat 32 t.val) = 0#1 := by decide

/-- THE LAW: for a time step `t < 32` the two spellings of the spike are one value. With a closed gate the sentinel
    matches no time step and the conjunction is false: both are zero. With an open gate both test "the latency is
    `t`", and selecting between one and zero by that bit is converting it. -/
theorem spikeSentinel_eq (x : Ideal .f32) (t : Nat) (ht : t < 32) : spikeSentinel x t = spike x t := by
  unfold spikeSentinel spike
  generalize latency x = l
  generalize gate x = g
  rcases BitVec.eq_zero_or_eq_one g with h | h <;> subst h
  · rw [select_zero, sentinel_ne ⟨t, ht⟩, andi_zero, select_one_zero]
  · rw [select_one, andi_one, select_one_zero]

/-! ## The arrays -/

/-- The result array as one function of the input array: entry `(b, t, c, h, w)` is the spike of input entry
    `(b, c, h, w)` at time step `t`. -/
def spikes (x : (⟨4, ![32, 3, 224, 224]⟩ : Shape).Idx → Ideal .f32) :
    (⟨5, ![32, 32, 3, 224, 224]⟩ : Shape).Idx → Ideal .f32 :=
  fun i => spike (x (ix4 (n0 := 32) (n1 := 3) (n2 := 224) (n3 := 224) (i 0) (i 2) (i 3) (i 4))) (i 1).val

/-- The same with the three image axes flattened to one axis of `3 · 224 · 224 = 150528` columns, and in the sentinel
    spelling: entry `(b, t, f)` is the spike of entry `(b, f)` at time step `t`. -/
def flat (A : (⟨2, ![32, 150528]⟩ : Shape).Idx → Ideal .f32) : (⟨3, ![32, 32, 150528]⟩ : Shape).Idx → Ideal .f32 :=
  fun i => spikeSentinel (A (ix2 (n0 := 32) (n1 := 150528) (i 0) (i 2))) (i 1).val

end Cert.Latency

end
-- ==== Proof.RefSpec.lean ====
/-
  The reference computes the specification.

  Its result is a chain of elementwise operations and broadcasts of the input; read at an index `(b, t, c, h, w)`,
  every broadcast of the clipped input and of the latency reads input entry `(b, c, h, w)`, and the broadcast of the
  time-step counter (an iota over 32 reshaped to `[1, 32, 1, 1, 1]`) reads `t`. What is left is the scalar
  `Cert.Latency.spike` of that entry at `t`.
-/
import proofs.«122302_j1297080123579_2_alg».proof.Proof.Gen.ReferenceIdeal.Read
import proofs.«122302_j1297080123579_2_alg».proof.Proof.Spec

noncomputable section

namespace Cert.Latency.Ref

open Cert.ReferenceIdeal Cert.ReferenceIdeal.Read Idealize.ShloMosaic Idealize.ShloMosaic.ValueIdx Cert.Latency

/-- The two broadcasts that add the time axis read input entry `(b, c, h, w)` at `(b, t, c, h, w)`. -/
theorem idx_latency (i : S32x32x3x224x224.Idx) :
    idx_main_v9 (idx_main_v10 i) = ix4 (n0 := 32) (n1 := 3) (n2 := 224) (n3 := 224) (i 0) (i 2) (i 3) (i 4) :=
  funext fun a => Fin.ext (by match a with | ⟨0, _⟩ => rfl | ⟨1, _⟩ => rfl | ⟨2, _⟩ => rfl | ⟨3, _⟩ => rfl)

/-- The same for the gate's two broadcasts. -/
theorem idx_gate (i : S32x32x3x224x224.Idx) :
    idx_main_v13 (idx_main_v16 i) = ix4 (n0 := 32) (n1 := 3) (n2 := 224) (n3 := 224) (i 0) (i 2) (i 3) (i 4) :=
  funext fun a => Fin.ext (by match a with | ⟨0, _⟩ => rfl | ⟨1, _⟩ => rfl | ⟨2, _⟩ => rfl | ⟨3, _⟩ => rfl)

/-- The broadcast of the reshaped counter reads the counter at `t`: the row-major position of `(0, t, 0, 0, 0)` in
    `[1, 32, 1, 1, 1]` is `t`. -/
theorem step_position (n : Nat) : (((0 * 32 + n) * 1 + 0) * 1 + 0) * 1 + 0 = n := by omega

/-- THE REFERENCE IS THE SPECIFICATION, index by index. -/
theorem result_eq (x0 : (⟨S32x3x224x224, .f32⟩ : BufTy).Contents (Elt Ideal)) :
    val_main_v18 (F := Ideal) x0 = spikes x0 := by
  funext i
  simp only [val_main_v18_apply, val_main_v17_apply, val_main_v12_apply, val_main_v16_apply, val_main_v15_apply,
    val_main_v14_apply, val_main_cst_4_apply, val_main_v13_apply, val_main_v10_apply, val_main_v11_apply,
    val_main_v9_apply, val_main_v8_apply, val_main_v7_apply, val_main_v6_apply, val_main_call1_v4_apply,
    val_main_call1_v3_apply, val_main_c_3_apply, val_main_call1_v2_apply, val_main_call1_v1_apply,
    val_main_call1_v0_apply, val_main_c_apply, val_main_v5_apply, val_main_v4_apply, val_main_v3_apply,
    val_main_cst_2_apply, val_main_v2_apply, val_main_v1_apply, val_main_cst_1_apply, val_main_v0_apply,
    val_main_call0_v4_apply, val_main_call0_v3_apply, val_main_cst_0_apply, val_main_call0_v2_apply,
    val_main_call0_v1_apply, val_main_call0_v0_apply, val_main_cst_apply, idx_latency, idx_gate, step_position]
  rfl

end Cert.Latency.Ref

end
-- ==== Proof.Payload.lean ====
/-
  What the kernel body stores, read at an index.

  The body loads a block `x0` of shape `[32, 1792]` and stores a block of shape `[32, 32, 1792]`. At entry
  `(b, t, l)` of the stored block: the sentinel latency, computed entry by entry on `[32, 1792]`, is given a unit
  time axis and laid along the 32 time steps, so it is read at `(b, l)`; the counter along the time axis reads `t`;
  and the final selection between one and zero is `Cert.Latency.spikeSentinel` of `x0 (b, l)` at `t`.
-/
import proofs.«122302_j1297080123579_2_alg».proof.Proof.Gen.KernelIdeal.Skeleton
import proofs.«122302_j1297080123579_2_alg».proof.Proof.Spec
import Idealize.ShloMosaic.Lib.Pipeline.Value
import Idealize.ShloMosaic.Lib.ValueIdx

noncomputable section

namespace Cert.Latency.Kernel

open Cert.KernelIdeal Cert.KernelIdeal.Gen Idealize.ShloMosaic Idealize.ShloMosaic.ValueIdx Cert.Latency

/-- The counter along the time axis of a `[32, 32, 1792]` block reads `t` at `(b, t, l)`. -/
theorem counter_apply (h : S32x32x1792.Iotas .tc 32 [1]) (b : Fin 32) (t : Fin 32) (l : Fin 1792) :
    iota .tc S32x32x1792 32 [1] h (ix3 b t l) = BitVec.ofNat 32 t.val :=
  iota_single_apply .tc S32x32x1792 32 1 h (ix3 b t l)

/-- A `[32, 1792]` vector given a unit time axis and laid along the 32 time steps reads `(b, l)` at `(b, t, l)`:
    the broadcast reads `(b, 0, l)` of the `[32, 1, 1792]` cast, whose row-major position `(b · 1 + 0) · 1792 + l` is
    that of `(b, l)`. -/
theorem along_time_apply {α : Type} (v : S32x1792.Idx → α) (h1 : S32x1792.ShapeCasts S32x1x1792)
    (h2 : S32x1x1792.Broadcasts S32x32x1792) (b : Fin 32) (t : Fin 32) (l : Fin 1792) :
    broadcastTo S32x32x1792 (shapeCast S32x1x1792 v h1) h2 (ix3 b t l) = v (ix2 b l) := by
  rw [broadcastTo_apply _ h2 (ix3 b t l) (ix3 b (0 : Fin 1) l) (fun a => by
    match a with
    | ⟨0, _⟩ => rfl
    | ⟨1, _⟩ => rfl
    | ⟨2, _⟩ => rfl)]
  exact shapeCast_apply v h1 (ix3 b (0 : Fin 1) l) (ix2 b l) (by
    rw [Shape.rowMajor_val_two, Shape.rowMajor_val_three]
    show b.val * 1792 + l.val = (b.val * 1 + 0) * 1792 + l.val
    omega)

/-- THE STORED BLOCK at `(b, t, l)` is the sentinel spelling of the spike of `x0 (b, l)` at time step `t`. -/
theorem payload_apply (x0 : Vec Ideal S32x1792 .f32) (b : Fin 32) (t : Fin 32) (l : Fin 1792) :
    k0_pay1 (F := Ideal) x0 (ix3 b t l) = spikeSentinel (x0 (ix2 b l)) t.val := by
  unfold k0_pay1
  dsimp only
  show Scalar.select (IntOp.cmpi .eq
      (broadcastTo S32x32x1792 (shapeCast S32x1x1792 _ shapeCasts_S32x1792_S32x1x1792) broadcasts_S32x1x1792_S32x32x1792 (ix3 b t l))
      (iota .tc S32x32x1792 32 [1] iota_S32x32x1792_d1_w32 (ix3 b t l))) _ _ = _
  rw [along_time_apply, counter_apply, shapeCast_self]
  rfl

end Cert.Latency.Kernel

end
-- ==== Proof.Blocks.lean ====
/-
  From the grid's blocks to the whole output array of the region.

  The region reads a `[32, 150528]` array `A` and writes a `[32, 32, 150528]` array. The grid has 84 points; point
  `p` loads columns `1792 p … 1792 p + 1791` of `A` (all 32 rows) and writes back the same columns of the output (all
  32 rows and all 32 time steps). So what point `p` writes back is block `p` of ONE function of `A`,

      `flat A (b, t, f) = spikeSentinel (A (b, f)) t`,

  and since column `f` lies in block `f / 1792`, the blocks cover the output array, which therefore ends holding
  `flat A`.
-/
import proofs.«122302_j1297080123579_2_alg».proof.Proof.Gen.KernelIdeal.Frame
import proofs.«122302_j1297080123579_2_alg».proof.Proof.Payload
import Idealize.ShloMosaic.Lib.Pipeline.Value

noncomputable section

namespace Cert.Latency.Kernel

open Cert.KernelIdeal Cert.KernelIdeal.Gen Idealize.ShloMosaic Idealize.ShloMosaic.TcCoe Idealize.SL.Sem
open Idealize.ShloMosaic.ValueIdx Cert.Latency
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 84 points: point `p` takes block `(0, p)` of the input and block
    `(0, 0, p)` of the output. -/
theorem block_indices : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = t.val :=
  (by decide +kernel : ∀ t : Fin grid0.N, _)

/- From here on the scalar `spikeSentinel` is carried as a name: what a point writes back is compared with `flat`
   entry by entry, and nothing in that comparison depends on how the scalar is computed. -/
attribute [local irreducible] Cert.Latency.spikeSentinel

/-- WHAT POINT `t` WRITES BACK is block `t` of `flat` of the input array as the region finds it: entry `(b, s, l)` of
    the stored block is the spike of entry `(b, l)` of the loaded block at time step `s`; the loaded block's entry
    `(b, l)` is the input array's entry `(b, 1792 t + l)`, and the stored block's entry `(b, s, l)` lands at
    `(b, s, 1792 t + l)` of the output array. -/
theorem flushed_eq (c : Dev nD) (t : Fin cfg0.N) :
    (dats m 0 c).flushed 1 t = ((cfg0.win 1).blk t).view.read (Elt Ideal) (flat (V m c main_v0)) := by
  show (cfg0.win 1).cut (grid0.coords t) ((dats m 0 c).after 1 t) = _
  rw [after0_1]
  unfold out0_1
  rw [View.canon_unit_zero zeros3]
  simp only [View.ld_unit_zero (S := S32x1792) zeros2]
  obtain ⟨e0, e1, e2, e3, e4⟩ := block_indices t
  funext j
  show k0_pay1 (iblk m c 0 t) j = flat (V m c main_v0) (((cfg0.win 1).blk t).view.emb j)
  obtain ⟨b, s, l, rfl⟩ : ∃ (b : Fin 32) (s : Fin 32) (l : Fin 1792), j = ix3 b s l := ⟨j 0, j 1, j 2, eq_ix3 j⟩
  rw [payload_apply]
  have hin : ((cfg0.win 0).blk t).view.emb (ix2 b l)
      = ix2 (n0 := 32) (n1 := 150528) ((((cfg0.win 1).blk t).view.emb (ix3 b s l)) 0) ((((cfg0.win 1).blk t).view.emb (ix3 b s l)) 2) := by
    funext a; apply Fin.ext
    match a with
    | ⟨0, _⟩ => show win0_0.index t (0 : Fin 2) * 32 + 1 * b.val = win0_1.index t (0 : Fin 3) * 32 + 1 * b.val; omega
    | ⟨1, _⟩ => show win0_0.index t (1 : Fin 2) * 1792 + 1 * l.val = win0_1.index t (2 : Fin 3) * 1792 + 1 * l.val; omega
  have hstep : ((((cfg0.win 1).blk t).view.emb (ix3 b s l)) 1).val = s.val := by
    show win0_1.index t (1 : Fin 3) * 32 + 1 * s.val = s.val; omega
  show spikeSentinel (V m c main_v0 (((cfg0.win 0).blk t).view.emb (ix2 b l))) s.val
    = spikeSentinel (V m c main_v0 (ix2 (n0 := 32) (n1 := 150528) ((((cfg0.win 1).blk t).view.emb (ix3 b s l)) 0) ((((cfg0.win 1).blk t).view.emb (ix3 b s l)) 2)))
        ((((cfg0.win 1).blk t).view.emb (ix3 b s l)) 1).val
  rw [hin, hstep]

/-- An index of the output array is in point `t`'s block iff each coordinate is in the block's range on its axis. -/
theorem mem_blk (t : Fin cfg0.N) (i : S32x32x150528.Idx) :
    i ∈ ((cfg0.win 1).blk t).view.set ↔ ∀ a : Fin 3, win0_1.index t a * S32x32x1792.size a ≤ (i a).val ∧ (i a).val < win0_1.index t a * S32x32x1792.size a + S32x32x1792.size a := by
  show i ∈ ((View.whole main_v1).slice (win0_1.rect t)).set ↔ _
  rw [View.set_slice_whole, Rect.mem_set_unit]
  exact Iff.rfl

/-- THE COVER: column `f` of the output lies in the block of point `f / 1792`. -/
theorem cover (i : S32x32x150528.Idx) :
    ∃ t : Fin cfg0.N, (cfg0.win 1).flush t = true ∧ i ∈ ((cfg0.win 1).blk t).view.set := by
  have h0 : (i 0).val < 32 := (i 0).isLt
  have h1 : (i 1).val < 32 := (i 1).isLt
  have h2 : (i 2).val < 150528 := (i 2).isLt
  have hN : cfg0.N = 84 := N_0
  obtain ⟨t, ht⟩ : ∃ t : Fin cfg0.N, t.val = (i 2).val / 1792 := ⟨⟨(i 2).val / 1792, by rw [hN]; omega⟩, rfl⟩
  obtain ⟨e0, e1, e2, e3, e4⟩ := block_indices t
  refine ⟨t, flush0_1 t, ?_⟩
  rw [mem_blk]
  intro a
  match a with
  | ⟨0, _⟩ => show win0_1.index t (0 : Fin 3) * 32 ≤ (i 0).val ∧ (i 0).val < win0_1.index t (0 : Fin 3) * 32 + 32; omega
  | ⟨1, _⟩ => show win0_1.index t (1 : Fin 3) * 32 ≤ (i 1).val ∧ (i 1).val < win0_1.index t (1 : Fin 3) * 32 + 32; omega
  | ⟨2, _⟩ => show win0_1.index t (2 : Fin 3) * 1792 ≤ (i 2).val ∧ (i 2).val < win0_1.index t (2 : Fin 3) * 1792 + 1792; omega

/-- THE OUTPUT ARRAY after the region: `flat` of the input array as the region finds it. -/
theorem final (c : Dev nD) : (dats m 0 c).arrAt 1 cfg0.N = flat (V m c main_v0) :=
  (dats m 0 c).arrAt_eq_of_cover 1 (flat (V m c main_v0)) (fun t _ => flushed_eq m c t) cover

end Cert.Latency.Kernel

end
-- ==== Proof.Flatten.lean ====
/-
  Flattening the image axes and back.

  A row-major reshape keeps each element's position in row-major order. So `[32, 3, 224, 224] → [32, 150528]` sends
  entry `(b, c, h, w)` to `(b, (c · 224 + h) · 224 + w)`, and `[32, 32, 150528] → [32, 32, 3, 224, 224]` reads entry
  `(b, t, c, h, w)` at `(b, t, (c · 224 + h) · 224 + w)`. Between the two, `flat` computes the spike of each flat
  entry at each time step; composed, entry `(b, t, c, h, w)` of the result is the spike of input entry `(b, c, h, w)` at
  `t` in the sentinel spelling, which the law `spikeSentinel_eq` turns into the specification `spikes`.
-/
import proofs.«122302_j1297080123579_2_alg».proof.Proof.Spec
import Idealize.ShloMosaic.Lib.Pipeline.Value

noncomputable section

namespace Cert.Latency

open Idealize.ShloMosaic Idealize.ShloMosaic.ValueIdx

/-- The flat column of image entry `(c, h, w)`. -/
def column (ch : Fin 3) (h : Fin 224) (w : Fin 224) : Fin 150528 :=
  ⟨(ch.val * 224 + h.val) * 224 + w.val, by have := ch.isLt; have := h.isLt; have := w.isLt; omega⟩

/-- The flattened input at `(b, column c h w)` is the input at `(b, c, h, w)`. -/
theorem flatten_apply {α : Type} (x : (⟨4, ![32, 3, 224, 224]⟩ : Shape).Idx → α)
    (h1 : (⟨4, ![32, 3, 224, 224]⟩ : Shape).ShapeCasts ⟨2, ![32, 150528]⟩)
    (b : Fin 32) (ch : Fin 3) (h : Fin 224) (w : Fin 224) :
    shapeCast ⟨2, ![32, 150528]⟩ x h1 (ix2 b (column ch h w)) = x (ix4 b ch h w) :=
  shapeCast_apply x h1 (ix2 b (column ch h w)) (ix4 b ch h w) (by
    rw [Shape.rowMajor_val_four, Shape.rowMajor_val_two]
    show ((b.val * 3 + ch.val) * 224 + h.val) * 224 + w.val = b.val * 150528 + ((ch.val * 224 + h.val) * 224 + w.val)
    omega)

/-- The unflattened output at `(b, t, c, h, w)` is the flat output at `(b, t, column c h w)`. -/
theorem unflatten_apply {α : Type} (y : (⟨3, ![32, 32, 150528]⟩ : Shape).Idx → α)
    (h2 : (⟨3, ![32, 32, 150528]⟩ : Shape).ShapeCasts ⟨5, ![32, 32, 3, 224, 224]⟩)
    (b : Fin 32) (t : Fin 32) (ch : Fin 3) (h : Fin 224) (w : Fin 224) :
    shapeCast ⟨5, ![32, 32, 3, 224, 224]⟩ y h2 (ix5 b t ch h w) = y (ix3 b t (column ch h w)) :=
  shapeCast_apply y h2 (ix5 b t ch h w) (ix3 b t (column ch h w)) (by
    rw [Shape.rowMajor_val_three, Shape.rowMajor_val_five]
    show (b.val * 32 + t.val) * 150528 + ((ch.val * 224 + h.val) * 224 + w.val)
      = (((b.val * 32 + t.val) * 3 + ch.val) * 224 + h.val) * 224 + w.val
    omega)

/-- FLATTEN, SPIKE, UNFLATTEN is the specification. -/
theorem unflatten_flat_flatten (x : (⟨4, ![32, 3, 224, 224]⟩ : Shape).Idx → Ideal .f32)
    (h1 : (⟨4, ![32, 3, 224, 224]⟩ : Shape).ShapeCasts ⟨2, ![32, 150528]⟩)
    (h2 : (⟨3, ![32, 32, 150528]⟩ : Shape).ShapeCasts ⟨5, ![32, 32, 3, 224, 224]⟩) :
    shapeCast ⟨5, ![32, 32, 3, 224, 224]⟩ (flat (shapeCast ⟨2, ![32, 150528]⟩ x h1)) h2 = spikes x := by
  funext i
  obtain ⟨b, t, ch, h, w, rfl⟩ : ∃ (b : Fin 32) (t : Fin 32) (ch : Fin 3) (h : Fin 224) (w : Fin 224), i = ix5 b t ch h w :=
    ⟨i 0, i 1, i 2, i 3, i 4, eq_ix5 i⟩
  rw [unflatten_apply]
  show spikeSentinel (shapeCast ⟨2, ![32, 150528]⟩ x h1 (ix2 b (column ch h w))) t.val = spike (x (ix4 b ch h w)) t.val
  rw [flatten_apply, spikeSentinel_eq _ _ t.isLt]

end Cert.Latency

end
-- ==== Proof.KernelRun.lean ====
/-
  The kernel program's result, end to end.

  The program flattens the image axes of its argument (a reshape on the host), runs the region on the flat array, and
  unflattens the region's output (a second reshape on the host). The region's input array is therefore the flattened
  argument, the region's output array is `flat` of it (the blocks cover it), and the program's result is that array
  unflattened: by `unflatten_flat_flatten`, the specification `spikes` of the argument.
-/
import proofs.«122302_j1297080123579_2_alg».proof.Proof.Gen.KernelIdeal.Frame
import proofs.«122302_j1297080123579_2_alg».proof.Proof.Blocks
import proofs.«122302_j1297080123579_2_alg».proof.Proof.Flatten
import Idealize.ShloMosaic.Lib.Pipeline.Value
import Idealize.ShloMosaic.Lib.StableHlo.Run

noncomputable section

namespace Cert.Latency.Kernel

open Cert.KernelIdeal Cert.KernelIdeal.Gen Idealize.ShloMosaic Idealize.ShloMosaic.TcCoe Idealize.SL.Sem
open Idealize.ShloMosaic.ValueIdx Cert.Latency Idealize.ShloMosaic.StableHlo
open Idealize.ShloMosaic.Pipeline (Dat)

variable (m : (ℓ : Loc nD τ sig) → Buf (Elt Ideal) ℓ) (ρ : Dev nD → PrngReg)

/-- The region's input array is the argument with its image axes flattened. -/
theorem input_array (c : Dev nD) :
    (V m c main_v0 : S32x150528.Idx → Ideal .f32)
      = shapeCast S32x150528 (m ((c : Thread nD τ).loc main_arg0)) shapeCasts_S32x3x224x224_S32x150528 := by
  show StableHlo.after hostOps0 (fun b => m (c, b)) (Proc.devRef .tc main_v0) = _
  after_results
  rfl

/-- The program's result is the region's output array with its flat axis unflattened. -/
theorem result_array (c : Dev nD) :
    (Pipeline.afterTail₀ cfgs (dats m) 0 (V0 m) [hostOps1] c main_v2 : S32x32x3x224x224.Idx → Ideal .f32)
      = shapeCast S32x32x3x224x224 ((dats m 0 c).arrAt 1 cfg0.N) shapeCasts_S32x32x150528_S32x32x3x224x224 := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = (dats m 0 c).arrAt 1 cfg0.N from
    Pipeline.withArrays_arr spec0 launch0.win.arr_inj c (V0 m c) (fun w => (dats m 0 c).arrAt w cfg0.N) 1]
  rfl

/-- THE RESULT: the specification of the argument. -/
theorem result_value (c : Dev nD) :
    (Pipeline.afterTail₀ cfgs (dats m) 0 (V0 m) [hostOps1] c main_v2 : S32x32x3x224x224.Idx → Ideal .f32)
      = spikes (m ((c : Thread nD τ).loc main_arg0)) := by
  rw [result_array, final, input_array]
  exact unflatten_flat_flatten _ _ _

/-- THE RUN: every weakly fair execution terminates with the result at `spikes` of the argument, the argument
    unchanged (the generated frame run, its post read at the result and at the argument). -/
theorem run : θ_run defs (onTc (τ := τ) (main (F := Ideal))) ⟨m, fun _ => 0, ρ⟩ fun r => ∀ c : Dev nD,
      r.2.mem ((c.tc : Thread nD τ).loc main_v2) = spikes (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_value m c),
       ((h c).2 main_arg0 (Pipeline.mem_restRefs_of main_arg0 (by decide) (by decide))).trans (W_main_arg0 m (dats m) c)⟩)
    (run_main m ρ)

end Cert.Latency.Kernel

end
-- ==== Proof.lean ====
/- The proof of `Cert.Claim`: a latency-coding kernel against its jnp reference, equal over the extended reals.

   Both programs clip the input to `[0, 1]`, turn `(1 - x) · 31` into an integer latency in `[0, 31]`, and emit, for
   each of 32 time steps `t`, the float `1` where the latency is `t` and the clipped input is positive, `0` elsewhere.
   The reference forms the conjunction of the two tests and converts it; the kernel moves the latency of a
   non-positive input to `32`, which no time step equals, and selects between one and zero. The two agree bit for
   bit (Proof/Spec.lean, `spikeSentinel_eq`, over Proof/LibBitToFloat.lean: a selection between one and zero by a bit
   is the bit converted): no real arithmetic is used, so the precondition is never opened.

   Proof/RefSpec.lean reads the reference's result at an index (over the generated run and read-at-an-index
   modules); Proof/Payload.lean reads what the kernel body stores at an index; Proof/Blocks.lean glues the 84 blocks
   to the region's whole output array; Proof/Flatten.lean reads the two host reshapes around the region at an index;
   Proof/KernelRun.lean states the kernel program's run with its result named. The three frames are the generated
   frame proofs (the reference's is its generated run with the result dropped), and `preserves` has nothing to
   state: the idealized kernel is the kernel's own text. -/
import proofs.«122302_j1297080123579_2_alg».proof.Defs
import proofs.«122302_j1297080123579_2_alg».proof.Proof.Gen.Kernel
import proofs.«122302_j1297080123579_2_alg».proof.Proof.Gen.Kernel.Skeleton
import proofs.«122302_j1297080123579_2_alg».proof.Proof.Gen.Kernel.Launch
import proofs.«122302_j1297080123579_2_alg».proof.Proof.Gen.Kernel.Points
import proofs.«122302_j1297080123579_2_alg».proof.Proof.Gen.Kernel.Frame
import proofs.«122302_j1297080123579_2_alg».proof.Proof.Gen.KernelIdeal
import proofs.«122302_j1297080123579_2_alg».proof.Proof.Gen.KernelIdeal.Skeleton
import proofs.«122302_j1297080123579_2_alg».proof.Proof.Gen.KernelIdeal.Launch
import proofs.«122302_j1297080123579_2_alg».proof.Proof.Gen.KernelIdeal.Points
import proofs.«122302_j1297080123579_2_alg».proof.Proof.Gen.KernelIdeal.Frame
import proofs.«122302_j1297080123579_2_alg».proof.Proof.Gen.ReferenceIdeal
import proofs.«122302_j1297080123579_2_alg».proof.Proof.Gen.Pre_finite_inputs
import proofs.«122302_j1297080123579_2_alg».proof.Proof.Gen.ReferenceIdeal.Run
import proofs.«122302_j1297080123579_2_alg».proof.Proof.Gen.ReferenceIdeal.Read
import proofs.«122302_j1297080123579_2_alg».proof.Proof.RefSpec
import proofs.«122302_j1297080123579_2_alg».proof.Proof.KernelRun
import Idealize.ShloMosaic.Adequacy
import Idealize.ShloMosaic.Init

noncomputable section

namespace Cert.Proof

open Idealize.ShloMosaic Idealize.SL.Sem Cert.Kernel

/-- The kernel as printed runs and keeps its argument: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its argument: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at `Cert.Latency.spikes` of the (agreeing) argument. -/
theorem algebraic : Cert.algebraic_KernelIdeal_ReferenceIdeal := by
  intro m ρ m' ρ' _ hagree
  refine ⟨fun c => Cert.Latency.spikes (m ((c.tc : Thread Cert.KernelIdeal.nD Cert.KernelIdeal.τ).loc Cert.KernelIdeal.main_arg0)),
    Cert.Latency.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Latency.Ref.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
